-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel

variable [Facts]

def fn {F : FTy → Type} [FloatOps F] (main_arg0 : FVec F S8x21x512x512 .f32) (main_arg1 : FVec F S8x21x512x512 .f32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_v4 : FVec F S8x21x512x512 .f32 := Host.absf main_arg1
  let main_cst_0 : FVec F S_ .f32 := constant S_ .f32 0x7F800000#32
  let main_v5 : FVec F S8x21x512x512 .f32 := broadcastInDim S8x21x512x512 ![] bcast_S_S8x21x512x512 main_cst_0
  let main_v6 : IVec S8x21x512x512 1 := cmpf .olt main_v4 main_v5
  let main_c_1 : IVec S_ 1 := constantI S_ 1 1#1
  let main_v7 : IVec S_ 1 := (fun x v => Host.reduce IntOp.andi x v reducesTo_S8x21x512x512_S_d0_1_2_3 h_S_) main_v6 main_c_1
  let main_v8 : IVec S_ 1 := andi main_v3 main_v7
  main_v8
-- ==== Kernel.lean ====
abbrev S8x21x512x512 : Shape := ⟨4, ![8, 21, 512, 512]⟩
abbrev S8x3x21 : Shape := ⟨3, ![8, 3, 21]⟩
abbrev S1x21x128x512 : Shape := ⟨4, ![1, 21, 128, 512]⟩
abbrev S1x3x21 : Shape := ⟨3, ![1, 3, 21]⟩
abbrev S1x21x128 : Shape := ⟨3, ![1, 21, 128]⟩
abbrev S1x21 : Shape := ⟨2, ![1, 21]⟩
abbrev S1x1x21 : Shape := ⟨3, ![1, 1, 21]⟩
abbrev S_ : Shape := ⟨0, ![]⟩
abbrev S3x21 : Shape := ⟨2, ![3, 21]⟩
abbrev S21 : Shape := ⟨1, ![21]⟩

abbrev nBuf : Space → Nat
  | .hbm => 24
  | .vmem => 6
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S8x3x21, .f32⟩
  | .hbm, ⟨3, _⟩ => ⟨S_, .f32⟩
  | .hbm, ⟨4, _⟩ => ⟨S3x21, .f32⟩
  | .hbm, ⟨5, _⟩ => ⟨S1x21, .f32⟩
  | .hbm, ⟨6, _⟩ => ⟨S21, .f32⟩
  | .hbm, ⟨7, _⟩ => ⟨S1x21, .f32⟩
  | .hbm, ⟨8, _⟩ => ⟨S21, .f32⟩
  | .hbm, ⟨9, _⟩ => ⟨S1x21, .f32⟩
  | .hbm, ⟨10, _⟩ => ⟨S21, .f32⟩
  | .hbm, ⟨11, _⟩ => ⟨S21, .f32⟩
  | .hbm, ⟨12, _⟩ => ⟨S21, .f32⟩
  | .hbm, ⟨13, _⟩ => ⟨S_, .f32⟩
  | .hbm, ⟨14, _⟩ => ⟨S21, .f32⟩
  | .hbm, ⟨15, _⟩ => ⟨S21, .f32⟩
  | .hbm, ⟨16, _⟩ => ⟨S21, .f32⟩
  | .hbm, ⟨17, _⟩ => ⟨S_, .f32⟩
  | .hbm, ⟨18, _⟩ => ⟨S21, .f32⟩
  | .hbm, ⟨19, _⟩ => ⟨S21, .i1⟩
  | .hbm, ⟨20, _⟩ => ⟨S_, .f32⟩
  | .hbm, ⟨21, _⟩ => ⟨S_, .f32⟩
  | .hbm, ⟨22, _⟩ => ⟨S21, .f32⟩
  | .hbm, ⟨23, _⟩ => ⟨S21, .f32⟩
  | .local _ .vmem, ⟨0, _⟩ => ⟨S1x21x128x512, .f32⟩
  | .local _ .vmem, ⟨1, _⟩ => ⟨S1x21x128x512, .f32⟩
  | .local _ .vmem, ⟨2, _⟩ => ⟨S1x21x128x512, .f32⟩
  | .local _ .vmem, ⟨3, _⟩ => ⟨S1x21x128x512, .f32⟩
  | .local _ .vmem, ⟨4, _⟩ => ⟨S1x3x21, .f32⟩
  | .local _ .vmem, ⟨5, _⟩ => ⟨S1x3x21, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x21x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x21_S1x3x21_0_0_0 : ∀ a, (![0, 0, 0] : Fin 3 → Nat) a + S1x3x21.size a ≤ S1x3x21.size a
  h_S1x3x21 : 0 < S1x3x21.numel
  inb_S1x21x128x512_S1x21x128x512_0_0_0_0 : ∀ a, (![0, 0, 0, 0] : Fin 4 → Nat) a + S1x21x128x512.size a ≤ S1x21x128x512.size a
  h_S1x21x128x512 : 0 < S1x21x128x512.numel
  natLt_1_32 : 1 < 32
  reduces_S1x21x128x512_S1x21x128 : S1x21x128x512.Reduces [3] S1x21x128
  reduces_S1x21x128_S1x21 : S1x21x128.Reduces [2] S1x21
  shapeCasts_S1x21_S1x1x21 : S1x21.ShapeCasts S1x1x21
  concatenates_S1x1x21_S1x1x21_S1x1x21_S1x3x21_d1 : Shape.Concatenates [S1x1x21, S1x1x21, S1x1x21] S1x3x21 1
  shapeCasts_S1x3x21_S1x3x21 : S1x3x21.ShapeCasts S1x3x21
  reducesTo_S8x3x21_S3x21_d0 : S8x3x21.ReducesTo [0] S3x21
  h_S_ : 0 < S_.numel
  slices_S3x21_S1x21_0_0 : S3x21.Slices ![0, 0] S1x21
  shapeCasts_S1x21_S21 : S1x21.ShapeCasts S21
  slices_S3x21_S1x21_1_0 : S3x21.Slices ![1, 0] S1x21
  slices_S3x21_S1x21_2_0 : S3x21.Slices ![2, 0] S1x21
  bcast_S_S21 : S_.BroadcastsInDim S21 (![] : Fin 0 → Fin S21.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x128x512.size a ≤ S8x21x512x512.size a
  hwx0_0 : ∀ i : grid0.Coords, EltTy.bits .f32 = 32 ∨ (Rect.block (s := S8x21x512x512) S1x21x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x21x128x512.size a ≤ S8x21x512x512.size a
  hwx0_1 : ∀ i : grid0.Coords, EltTy.bits .f32 = 32 ∨ (Rect.block (s := S8x21x512x512) S1x21x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x21.size a ≤ S8x3x21.size a
  hwx0_2 : ∀ i : grid0.Coords, EltTy.bits .f32 = 32 ∨ (Rect.block (s := S8x3x21) S1x3x21.size (cc0_transform_2 i) (hinb0_2 i)).WholeWords (EltTy.packing .f32)

variable [Facts₀]

abbrev win0_0 : Pipeline.Window sig grid0 :=
  Pipeline.Window.ofSpec (Memref.whole main_arg0) S1x21x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x21x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x21.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S_ : Shape := ⟨0, ![]⟩
abbrev S21 : Shape := ⟨1, ![21]⟩

abbrev nBuf : Space → Nat
  | .hbm => 34
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S_, .f32⟩
  | .hbm, ⟨3, _⟩ => ⟨S8x21x512x512, .f32⟩
  | .hbm, ⟨4, _⟩ => ⟨S8x21x512x512, .i1⟩
  | .hbm, ⟨5, _⟩ => ⟨S_, .f32⟩
  | .hbm, ⟨6, _⟩ => ⟨S8x21x512x512, .f32⟩
  | .hbm, ⟨7, _⟩ => ⟨S8x21x512x512, .i1⟩
  | .hbm, ⟨8, _⟩ => ⟨S8x21x512x512, .i1⟩
  | .hbm, ⟨9, _⟩ => ⟨S8x21x512x512, .i32⟩
  | .hbm, ⟨10, _⟩ => ⟨S_, .i32⟩
  | .hbm, ⟨11, _⟩ => ⟨S21, .i32⟩
  | .hbm, ⟨12, _⟩ => ⟨S21, .f32⟩
  | .hbm, ⟨13, _⟩ => ⟨S8x21x512x512, .i32⟩
  | .hbm, ⟨14, _⟩ => ⟨S_, .i32⟩
  | .hbm, ⟨15, _⟩ => ⟨S21, .i32⟩
  | .hbm, ⟨16, _⟩ => ⟨S21, .f32⟩
  | .hbm, ⟨17, _⟩ => ⟨S8x21x512x512, .i32⟩
  | .hbm, ⟨18, _⟩ => ⟨S_, .i32⟩
  | .hbm, ⟨19, _⟩ => ⟨S21, .i32⟩
  | .hbm, ⟨20, _⟩ => ⟨S21, .f32⟩
  | .hbm, ⟨21, _⟩ => ⟨S21, .f32⟩
  | .hbm, ⟨22, _⟩ => ⟨S21, .f32⟩
  | .hbm, ⟨23, _⟩ => ⟨S_, .f32⟩
  | .hbm, ⟨24, _⟩ => ⟨S21, .f32⟩
  | .hbm, ⟨25, _⟩ => ⟨S21, .f32⟩
  | .hbm, ⟨26, _⟩ => ⟨S21, .f32⟩
  | .hbm, ⟨27, _⟩ => ⟨S_, .f32⟩
  | .hbm, ⟨28, _⟩ => ⟨S21, .f32⟩
  | .hbm, ⟨29, _⟩ => ⟨S21, .i1⟩
  | .hbm, ⟨30, _⟩ => ⟨S_, .f32⟩
  | .hbm, ⟨31, _⟩ => ⟨S_, .f32⟩
  | .hbm, ⟨32, _⟩ => ⟨S21, .f32⟩
  | .hbm, ⟨33, _⟩ => ⟨S21, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S8x21x512x512 : S_.BroadcastsInDim S8x21x512x512 (![] : Fin 0 → Fin S8x21x512x512.rank)
  natLt_1_32 : 1 < 32
  reducesTo_S8x21x512x512_S21_d0_2_3 : S8x21x512x512.ReducesTo [0, 2, 3] S21
  h_S_ : 0 < S_.numel
  bcast_S_S21 : S_.BroadcastsInDim S21 (![] : Fin 0 → Fin S21.rank)

variable [Facts₀]

class Facts : Prop extends Facts₀ where

variable [Facts]
-- ==== Proof.Spec.lean ====
/-
  The statistics both programs compute, stated once over plain index types.

  At every position (b, c, h, w) of the two input arrays three one-bit tests are made: the prediction is at least
  one half, the target equals one, and both at once.  For each class c the result is built from three COUNTS: how
  many positions (b, h, w) pass each test.  The kernel accumulates the counts as sums of the float values 0 and 1,
  tile by tile (a tile is one batch entry b and 128 consecutive rows h); the reference sums 32-bit integers 0 and 1
  over all positions at once and converts the total.  Both totals are the natural number `count` below; it is at
  most 8 * 512 * 512 = 2 ^ 21, so neither the 32-bit sum nor the conversion loses anything.
-/
import Idealize.ShloMosaic.PureOps.Ideal
import Idealize.ShloMosaic.Lib.ValueIdx

noncomputable section

open scoped BigOperators

namespace Cert.Jaccard

open Idealize.ShloMosaic Idealize.ShloMosaic.ValueIdx

/-- The whole input arrays' shape, one tile's shape, one tile's result block and the array of per-batch results. -/
abbrev SIn : Shape := ⟨4, ![8, 21, 512, 512]⟩
abbrev STile : Shape := ⟨4, ![1, 21, 128, 512]⟩
abbrev SBlk : Shape := ⟨3, ![1, 3, 21]⟩
abbrev SPart : Shape := ⟨3, ![8, 3, 21]⟩

/-- "the prediction is at least one half", as the one-bit word the comparison returns. -/
def predBit (p : Ideal .f32) : BitVec 1 := FloatOps.cmpf (F := Ideal) (φ := .f32) .oge p (FloatOps.ofBits .f32 0x3F000000#32)
/-- "the target equals one". -/
def targBit (t : Ideal .f32) : BitVec 1 := FloatOps.cmpf (F := Ideal) (φ := .f32) .oeq t (FloatOps.ofBits .f32 0x3F800000#32)

/-- Statistic 0 tests both (the intersection), statistic 1 the prediction, statistic 2 the target. -/
def bit (s : Fin 3) (p t : Ideal .f32) : BitVec 1 :=
  match s with
  | 0 => IntOp.andi (predBit p) (targBit t)
  | 1 => predBit p
  | 2 => targBit t

/-- How many positions (r, w) of one tile pass test `s` in class `c`. -/
def tileCount (s : Fin 3) (x0 x1 : STile.Idx → Ideal .f32) (c : Fin 21) : ℕ :=
  ∑ r : Fin 128, ∑ w : Fin 512, (bit s (x0 (ix4 0 c r w)) (x1 (ix4 0 c r w))).toNat

/-- How many positions (b, h, w) of the whole arrays pass test `s` in class `c`. -/
def count (s : Fin 3) (x0 x1 : SIn.Idx → Ideal .f32) (c : Fin 21) : ℕ :=
  ∑ b : Fin 8, ∑ h : Fin 512, ∑ w : Fin 512, (bit s (x0 (ix4 b c h w)) (x1 (ix4 b c h w))).toNat

/-- A one-bit word is 0 or 1 as a number. -/
theorem bit_toNat_le (s : Fin 3) (p t : Ideal .f32) : (bit s p t).toNat ≤ 1 := by
  have := (bit s p t).isLt
  omega

/-- No count exceeds the number of positions, 2 ^ 21. -/
theorem count_le (s : Fin 3) (x0 x1 : SIn.Idx → Ideal .f32) (c : Fin 21) : count s x0 x1 c ≤ 2 ^ 21 := by
  unfold count
  calc _ ≤ ∑ _b : Fin 8, ∑ _h : Fin 512, ∑ _w : Fin 512, 1 :=
        Finset.sum_le_sum fun b _ => Finset.sum_le_sum fun h _ => Finset.sum_le_sum fun w _ => bit_toNat_le _ _ _
    _ = 2 ^ 21 := by simp

end Cert.Jaccard

end
-- ==== Proof.Tail.lean ====
/-
  The last lines of both programs, as one function of the three count vectors.

  From the per-class counts `inter` (prediction and target both set), `pred` and `targ` both programs form the
  union `pred + targ - inter`, divide `inter` by the larger of the union and 1, and put a fixed word in the classes
  whose union is 0.  The two programs print these lines identically, so the certificate never looks inside: it
  shows the count vectors equal and applies this function to both sides.
-/
import Idealize.ShloMosaic.PureOps.Ideal

noncomputable section

namespace Cert.Jaccard

open Idealize.ShloMosaic

/-- The shape of the result: one entry per class. -/
abbrev SCls : Shape := ⟨1, ![21]⟩
/-- The scalar shape. -/
abbrev SSca : Shape := ⟨0, ![]⟩

/-- Intersection over union per class from the three counts, with the classes of empty union marked. -/
def tail (hb : SSca.BroadcastsInDim SCls (![] : Fin 0 → Fin SCls.rank)) (inter pred targ : FVec Ideal SCls .f32) :
    FVec Ideal SCls .f32 :=
  select (cmpf (F := Ideal) .oeq (subf (addf pred targ) inter) (broadcastInDim SCls ![] hb (constant (F := Ideal) SSca .f32 0x00000000#32)))
    (broadcastInDim SCls ![] hb (id (constant (F := Ideal) SSca .f32 0x7FC00000#32)))
    (Host.divf inter (maximumf (subf (addf pred targ) inter) (broadcastInDim SCls ![] hb (constant (F := Ideal) SSca .f32 0x3F800000#32))))

end Cert.Jaccard

end
-- ==== Proof.RefCount.lean ====
/-
  The reference's integer count is the natural-number count.

  The reference widens each one-bit test to a 32-bit integer (0 or 1), adds those integers over the positions
  (b, h, w) of one class with wrap-around 32-bit addition from 0, and converts the total to a float, read signed.
  A sum of 32-bit words that are images of natural numbers is the image of the natural-number sum; that sum is
  the count, at most 2 ^ 21 < 2 ^ 31, so its signed reading is the count itself.
-/
import proofs.«136420_j88905823027748_2_alg».proof.Proof.Spec
import proofs.«136420_j88905823027748_2_alg».proof.Proof.Tail
import Idealize.ShloMosaic.PureOps.Reduce
import Idealize.ShloMosaic.PureOps.Ideal
import Idealize.ShloMosaic.Lib.ValueIdx

noncomputable section

open scoped BigOperators

namespace Cert.Jaccard

open Idealize.ShloMosaic Idealize.ShloMosaic.ValueIdx

/-- Widening a one-bit word to 32 bits gives the 32-bit image of its numeric value. -/
theorem setWidth_bit_eq_ofNat (b : BitVec 1) : b.setWidth 32 = BitVec.ofNat 32 b.toNat := by
  revert b; decide

/-- Wrap-around addition from 0 of the 32-bit images of natural numbers, over any finite set, is the image of
    the natural-number sum. -/
theorem fold_addi_ofNat {ι : Type} (S : Finset ι) (f : ι → ℕ) :
    S.fold IntOp.addi 0#32 (fun i => BitVec.ofNat 32 (f i)) = BitVec.ofNat 32 (∑ i ∈ S, f i) := by
  induction S using Finset.cons_induction with
  | empty => rfl
  | cons a S ha ih =>
    rw [Finset.fold_cons, Finset.sum_cons, ih]
    exact (BitVec.ofNat_add (f a) (∑ i ∈ S, f i)).symm

/-- The positions that the reduction over the axes (b, h, w) sends to class `c` are those whose class is `c`. -/
theorem filter_drop_eq (hred : SIn.ReducesTo [0, 2, 3] SCls) (c : Fin 21) :
    (Finset.univ.filter fun i : SIn.Idx => hred.drop i = ix1 c) = Finset.univ.filter fun i : SIn.Idx => (i 1 : ℕ) = (c : ℕ) := by
  refine Finset.filter_congr fun i _ => ?_
  simp [funext_iff, Fin.ext_iff, Fin.forall_fin_one, hred.drop_apply_val_of_eq i 0 1]

/-- A sum over the positions of class `c` is a triple sum over (b, h, w). -/
theorem sum_filter_class {M : Type} [AddCommMonoid M] (f : SIn.Idx → M) (c : Fin 21) :
    ∑ i ∈ Finset.univ.filter (fun i : SIn.Idx => (i 1 : ℕ) = (c : ℕ)), f i
      = ∑ b : Fin 8, ∑ h : Fin 512, ∑ w : Fin 512, f (ix4 b c h w) := by
  have e : ∑ b : Fin 8, ∑ h : Fin 512, ∑ w : Fin 512, f (ix4 b c h w)
      = ∑ p : Fin 8 × Fin 512 × Fin 512, f (ix4 p.1 c p.2.1 p.2.2) := by
    simp only [Fintype.sum_prod_type]
  rw [e]
  refine Finset.sum_nbij' (fun i => (i 0, i 2, i 3)) (fun p => ix4 p.1 c p.2.1 p.2.2) ?_ ?_ ?_ ?_ ?_
  · intro i _; exact Finset.mem_univ _
  · intro p _; exact Finset.mem_filter.2 ⟨Finset.mem_univ _, rfl⟩
  · intro i hi
    have hc : i 1 = c := Fin.ext (Finset.mem_filter.1 hi).2
    subst hc
    exact (eq_ix4 i).symm
  · intro p _; rfl
  · intro i hi
    have hc : i 1 = c := Fin.ext (Finset.mem_filter.1 hi).2
    subst hc
    exact congrArg f (eq_ix4 i)

/-- A natural number below 2 ^ 31 is the signed reading of its 32-bit image. -/
theorem toInt_ofNat_of_le (n : ℕ) (hn : n ≤ 2 ^ 21) : (BitVec.ofNat 32 n).toInt = (n : ℤ) := by
  rw [BitVec.toInt_eq_toNat_of_lt (by rw [BitVec.toNat_ofNat]; omega), BitVec.toNat_ofNat]
  congr 1
  omega

/-- The reference's count: the 32-bit sum of the widened tests, converted signed, is the count. -/
theorem ref_count (s : Fin 3) (x0 x1 : SIn.Idx → Ideal .f32) (B : IVec SIn 1) (hB : ∀ i, B i = bit s (x0 i) (x1 i))
    (hred : SIn.ReducesTo [0, 2, 3] SCls) (hS : 0 < SSca.numel) (h132 : 1 < 32) (c : Fin 21) :
    sitofp (F := Ideal) .f32 (Host.reduce IntOp.addi (extui 32 B h132) (constantI SSca 32 0#32) hred hS) (ix1 c)
      = (((count s x0 x1 c : ℕ) : ℝ) : EReal) := by
  have hx : extui 32 B h132 = fun i => BitVec.ofNat 32 ((bit s (x0 i) (x1 i)).toNat) :=
    funext fun i => by rw [← hB i]; exact setWidth_bit_eq_ofNat (B i)
  have hsum : Host.reduce IntOp.addi (extui 32 B h132) (constantI SSca 32 0#32) hred hS (ix1 c)
      = BitVec.ofNat 32 (count s x0 x1 c) := by
    rw [Host.reduce_eq_fold, filter_drop_eq, hx]
    refine (fold_addi_ofNat _ _).trans (congrArg (BitVec.ofNat 32) ?_)
    exact sum_filter_class (fun i => (bit s (x0 i) (x1 i)).toNat) c
  show (((Host.reduce IntOp.addi (extui 32 B h132) (constantI SSca 32 0#32) hred hS (ix1 c)).toInt : ℝ) : EReal) = _
  rw [hsum, toInt_ofNat_of_le _ (count_le s x0 x1 c)]
  rfl

end Cert.Jaccard

end
-- ==== Proof.Result.lean ====
/-
  The common result: intersection over union per class, from the three counts read as floats.
-/
import proofs.«136420_j88905823027748_2_alg».proof.Proof.Spec
import proofs.«136420_j88905823027748_2_alg».proof.Proof.Tail

noncomputable section

namespace Cert.Jaccard

open Idealize.ShloMosaic

/-- The counts of statistic `s`, one per class, as extended reals. -/
def counts (s : Fin 3) (x0 x1 : SIn.Idx → Ideal .f32) : FVec Ideal SCls .f32 :=
  fun j => (((count s x0 x1 (j 0 : Fin 21) : ℕ) : ℝ) : EReal)

/-- What both programs compute from the two input arrays. -/
def G (hb : SSca.BroadcastsInDim SCls (![] : Fin 0 → Fin SCls.rank)) (x0 x1 : SIn.Idx → Ideal .f32) : FVec Ideal SCls .f32 :=
  tail hb (counts 0 x0 x1) (counts 1 x0 x1) (counts 2 x0 x1)

end Cert.Jaccard

end
-- ==== Proof.RefValue.lean ====
/-
  The reference's result as the common function of the two input arrays.

  The reference makes the three one-bit tests at every position, widens them to 32 bits, sums each over the batch, row
  and lane axes with 32-bit addition, converts the three totals to floats and applies the common last lines.  Each
  converted total at class c is the count of the positions passing the test, so the whole term is the common result
  function of the two arrays.
-/
import proofs.«136420_j88905823027748_2_alg».proof.Proof.RefRun
import proofs.«136420_j88905823027748_2_alg».proof.Proof.RefCount
import proofs.«136420_j88905823027748_2_alg».proof.Proof.Result
import Idealize.ShloMosaic.Lib.ValueIdx
import Idealize.ShloMosaic.Lib.Pipeline.Value

noncomputable section

namespace Cert.Jaccard

open Idealize.ShloMosaic Idealize.ShloMosaic.ValueIdx
open Cert.ReferenceIdeal Cert.ReferenceIdeal.Gen

/-- The common last lines respect equality of the three count vectors. -/
theorem tail_congr (hb : SSca.BroadcastsInDim SCls (![] : Fin 0 → Fin SCls.rank)) {I P T I' P' T' : FVec Ideal SCls .f32}
    (hI : I = I') (hP : P = P') (hT : T = T') : tail hb I P T = tail hb I' P' T' := by
  rw [hI, hP, hT]

/-- The reference's result term, over any two input arrays, is the common function of them: its three converted 32-bit
    sums are the three count vectors, and the lines after them are the common last lines. -/
theorem ref_value (x0 x1 : (⟨S8x21x512x512, .f32⟩ : BufTy).Contents (Elt Ideal)) :
    select (cmpf (F := Ideal) .oeq (subf (addf (sitofp .f32 (Host.reduce IntOp.addi (extui 32 (cmpf (F := Ideal) .oge x0 (broadcastInDim S8x21x512x512 ![] bcast_S_S8x21x512x512 (constant S_ .f32 0x3F000000#32))) natLt_1_32) (constantI S_ 32 0#32) reducesTo_S8x21x512x512_S21_d0_2_3 h_S_)) (sitofp .f32 (Host.reduce IntOp.addi (extui 32 (cmpf (F := Ideal) .oeq x1 (broadcastInDim S8x21x512x512 ![] bcast_S_S8x21x512x512 (constant S_ .f32 0x3F800000#32))) natLt_1_32) (constantI S_ 32 0#32) reducesTo_S8x21x512x512_S21_d0_2_3 h_S_))) (sitofp .f32 (Host.reduce IntOp.addi (extui 32 (andi (cmpf (F := Ideal) .oge x0 (broadcastInDim S8x21x512x512 ![] bcast_S_S8x21x512x512 (constant S_ .f32 0x3F000000#32))) (cmpf (F := Ideal) .oeq x1 (broadcastInDim S8x21x512x512 ![] bcast_S_S8x21x512x512 (constant S_ .f32 0x3F800000#32)))) natLt_1_32) (constantI S_ 32 0#32) reducesTo_S8x21x512x512_S21_d0_2_3 h_S_))) (broadcastInDim S21 ![] bcast_S_S21 (constant S_ .f32 0x00000000#32))) (broadcastInDim S21 ![] bcast_S_S21 (id (constant S_ .f32 0x7FC00000#32))) (Host.divf (sitofp .f32 (Host.reduce IntOp.addi (extui 32 (andi (cmpf (F := Ideal) .oge x0 (broadcastInDim S8x21x512x512 ![] bcast_S_S8x21x512x512 (constant S_ .f32 0x3F000000#32))) (cmpf (F := Ideal) .oeq x1 (broadcastInDim S8x21x512x512 ![] bcast_S_S8x21x512x512 (constant S_ .f32 0x3F800000#32)))) natLt_1_32) (constantI S_ 32 0#32) reducesTo_S8x21x512x512_S21_d0_2_3 h_S_)) (maximumf (subf (addf (sitofp .f32 (Host.reduce IntOp.addi (extui 32 (cmpf (F := Ideal) .oge x0 (broadcastInDim S8x21x512x512 ![] bcast_S_S8x21x512x512 (constant S_ .f32 0x3F000000#32))) natLt_1_32) (constantI S_ 32 0#32) reducesTo_S8x21x512x512_S21_d0_2_3 h_S_)) (sitofp .f32 (Host.reduce IntOp.addi (extui 32 (cmpf (F := Ideal) .oeq x1 (broadcastInDim S8x21x512x512 ![] bcast_S_S8x21x512x512 (constant S_ .f32 0x3F800000#32))) natLt_1_32) (constantI S_ 32 0#32) reducesTo_S8x21x512x512_S21_d0_2_3 h_S_))) (sitofp .f32 (Host.reduce IntOp.addi (extui 32 (andi (cmpf (F := Ideal) .oge x0 (broadcastInDim S8x21x512x512 ![] bcast_S_S8x21x512x512 (constant S_ .f32 0x3F000000#32))) (cmpf (F := Ideal) .oeq x1 (broadcastInDim S8x21x512x512 ![] bcast_S_S8x21x512x512 (constant S_ .f32 0x3F800000#32)))) natLt_1_32) (constantI S_ 32 0#32) reducesTo_S8x21x512x512_S21_d0_2_3 h_S_))) (broadcastInDim S21 ![] bcast_S_S21 (constant S_ .f32 0x3F800000#32))))
      = G Cert.ReferenceIdeal.Facts₀.bcast_S_S21 x0 x1 := by
  unfold G
  show tail _ _ _ _ = tail _ _ _ _
  refine tail_congr _ ?_ ?_ ?_
  · funext j
    obtain ⟨c, rfl⟩ : ∃ c, j = ix1 c := ⟨j 0, eq_ix1 j⟩
    exact ref_count 0 x0 x1 _ (fun _ => rfl) _ _ _ c
  · funext j
    obtain ⟨c, rfl⟩ : ∃ c, j = ix1 c := ⟨j 0, eq_ix1 j⟩
    exact ref_count 1 x0 x1 _ (fun _ => rfl) _ _ _ c
  · funext j
    obtain ⟨c, rfl⟩ : ∃ c, j = ix1 c := ⟨j 0, eq_ix1 j⟩
    exact ref_count 2 x0 x1 _ (fun _ => rfl) _ _ _ c

end Cert.Jaccard

end
-- ==== Proof.Pieces.lean ====
/-
  What one run of the kernel body leaves in the result block, as a value.

  At the first row-tile of a batch entry the body stores the zero block, reads it back and stores that plus the
  tile's three sums; at every other row-tile it stores the block it found plus the tile's three sums.
-/
import proofs.«136420_j88905823027748_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Jaccard.K

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Away from the first row-tile: the block found, plus the tile's sums. -/
theorem out_B (c : Dev nD) (i : grid0.Coords) (a2 : Memref sig .tc .vmem S1x21x128x512 .f32) (h2 : a2.IsWhole)
    (a3 : Memref sig .tc .vmem S1x21x128x512 .f32) (h3 : a3.IsWhole) (a4 : Memref sig .tc .vmem S1x3x21 .f32) (h4 : a4.IsWhole)
    (hc : ¬cond0_0 i) (x0 x1 : Vec F S1x21x128x512 .f32) (xo : Vec F S1x3x21 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S1x21x128x512) hz4,
    View.ld_unit_zero (S := S1x3x21) hz3]

/-- At the first row-tile: the zero block, plus the tile's sums. -/
theorem out_A (c : Dev nD) (i : grid0.Coords) (a2 : Memref sig .tc .vmem S1x21x128x512 .f32) (h2 : a2.IsWhole)
    (a3 : Memref sig .tc .vmem S1x21x128x512 .f32) (h3 : a3.IsWhole) (a4 : Memref sig .tc .vmem S1x3x21 .f32) (h4 : a4.IsWhole)
    (hc : cond0_0 i) (x0 x1 : Vec F S1x21x128x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x3x21) hz3, View.readCov_unit_zero (S := S1x3x21) _ hz3]
  simp only [View.readAt_eq_ld, h2.read_unread, h3.read_unread, View.ld_unit_zero (S := S1x21x128x512) hz4]

end Cert.Jaccard.K

end
-- ==== Proof.Accum.lean ====
/-
  The result block after each grid point, and the array of per-batch counts after the region.

  The grid has 8 * 4 points: point t works on batch entry t / 4 and row-tile t % 4 (128 rows).  The result block of a
  batch entry is reset at its first row-tile and accumulates the tile counts of the later ones, so after the last
  row-tile it holds, per statistic and class, the count over all 512 rows of that batch entry; it is written back
  then, to row t / 4 of the [8, 3, 21] array.
-/
import proofs.«136420_j88905823027748_2_alg».proof.Proof.Pieces
import proofs.«136420_j88905823027748_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.Jaccard.K

open Cert.KernelIdeal Cert.KernelIdeal.Gen

variable (m : (ℓ : Loc nD τ sig) → Buf (Elt Ideal) ℓ) (ρ : Dev nD → PrngReg)

/-- The count of one tile: the tile the two input windows show at point `n` (nothing beyond the grid). -/
def Tn (c : Dev nD) (s : Fin 3) (cc : Fin 21) (n : ℕ) : ℕ :=
  if h : n < cfg0.N then tileCount s (iblk m c 0 ⟨n, h⟩ : Vec Ideal S1x21x128x512 .f32) (iblk m c 1 ⟨n, h⟩ : Vec Ideal S1x21x128x512 .f32) cc else 0

/-- The running count: restarted at every fourth point, otherwise the count so far plus the point's tile. -/
def accN (c : Dev nD) (s : Fin 3) (cc : Fin 21) : ℕ → ℕ
  | 0 => Tn m c s cc 0
  | n + 1 => (if (n + 1) % 4 = 0 then 0 else accN c s cc n) + Tn m c s cc (n + 1)

/-- The payload lemmas this module is stated over: the zero block, and the block found plus the tile's counts. -/
def Pay1 : Prop := ∀ j : S1x3x21.Idx, k0_pay1 (F := Ideal) j = 0
def Pay2 : Prop := ∀ (v3 v8 : Vec Ideal S1x21x128x512 .f32) (v25 : Vec Ideal S1x3x21 .f32) (s : Fin 3) (cc : Fin 21),
    k0_pay2 (F := Ideal) v3 v8 v25 (ix3 (0 : Fin 1) s cc) = v25 (ix3 (0 : Fin 1) s cc) + (((tileCount s v3 v8 cc : ℕ) : ℝ) : EReal)

/-- After point `n` the result block holds the running count. -/
theorem outsAt_eq (hp1 : Pay1) (hp2 : Pay2) (c : Dev nD) (s : Fin 3) (cc : Fin 21) : ∀ (n : ℕ) (h : n < cfg0.N),
    outsAt0 m c n h (ix3 (0 : Fin 1) s cc) = (((accN m c s cc n : ℕ) : ℝ) : EReal)
  | 0, h => by
    rw [outsAt0_A m c ⟨0, h⟩ rfl, out_A]
    refine (hp2 (iblk m c 0 ⟨0, h⟩) (iblk m c 1 ⟨0, h⟩) _ s cc).trans ?_
    rw [hp1, zero_add]
    unfold accN Tn
    rw [dif_pos h]
  | n + 1, h => by
    by_cases h0 : (n + 1) % 4 = 0
    · rw [outsAt0_A m c ⟨n + 1, h⟩ h0, out_A]
      refine (hp2 (iblk m c 0 ⟨n + 1, h⟩) (iblk m c 1 ⟨n + 1, h⟩) _ s cc).trans ?_
      rw [hp1, zero_add]
      unfold accN Tn
      rw [if_pos h0, dif_pos h, zero_add]
    · rw [outsAt0_B m c ⟨n + 1, h⟩ h0, out_B]
      refine (hp2 (iblk m c 0 ⟨n + 1, h⟩) (iblk m c 1 ⟨n + 1, h⟩) _ s cc).trans ?_
      show outsAt0 m c n _ (ix3 (0 : Fin 1) s cc) + _ = _
      rw [outsAt_eq hp1 hp2 c s cc n]
      conv_rhs => unfold accN
      rw [if_neg h0, ← EReal.coe_add, ← Nat.cast_add]
      unfold Tn
      rw [dif_pos h]

/-- At a point that starts a batch entry the running count is the point's tile alone. -/
theorem accN_reset (c : Dev nD) (s : Fin 3) (cc : Fin 21) (n : ℕ) (h : n % 4 = 0) : accN m c s cc n = Tn m c s cc n := by
  cases n with
  | zero => rfl
  | succ n => simp only [accN]; rw [if_pos h, zero_add]

/-- At any other point it grows by the point's tile. -/
theorem accN_step (c : Dev nD) (s : Fin 3) (cc : Fin 21) (n : ℕ) (h : ¬(n + 1) % 4 = 0) :
    accN m c s cc (n + 1) = accN m c s cc n + Tn m c s cc (n + 1) := by
  simp only [accN]; rw [if_neg h]

/-- After the last row-tile of batch entry `b` the running count is the sum of its four tiles. -/
theorem accN_last (c : Dev nD) (s : Fin 3) (cc : Fin 21) (b : ℕ) :
    accN m c s cc (4 * b + 3) = Tn m c s cc (4 * b) + Tn m c s cc (4 * b + 1) + Tn m c s cc (4 * b + 2) + Tn m c s cc (4 * b + 3) := by
  rw [show 4 * b + 3 = (4 * b + 2) + 1 from rfl, accN_step m c s cc _ (by omega),
    show 4 * b + 2 = (4 * b + 1) + 1 from rfl, accN_step m c s cc _ (by omega),
    accN_step m c s cc (4 * b) (by omega), accN_reset m c s cc (4 * b) (by omega)]

/-- The printed index maps over the grid: point t shows batch entry t / 4 and row-tile t % 4 of both inputs, and row
    t / 4 of the array of per-batch counts. -/
theorem idx_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 4) = t.val / 4 ∧ win0_1.index t (1 : Fin 4) = 0 ∧ win0_1.index t (2 : Fin 4) = t.val % 4 ∧ win0_1.index t (3 : Fin 4) = 0
    ∧ win0_2.index t (0 : Fin 3) = t.val / 4 ∧ win0_2.index t (1 : Fin 3) = 0 ∧ win0_2.index t (2 : Fin 3) = 0 :=
  (by decide +kernel : ∀ t : Fin grid0.N, _)

theorem tN (t : Fin cfg0.N) : t.val < 32 := lt_of_lt_of_eq t.isLt (show cfg0.N = 32 from N_0)

/-- The first input's tile at point t, read at an index: batch entry t / 4, row 128 * (t % 4) + r. -/
theorem iblk0_apply (c : Dev nD) (t : Fin cfg0.N) (j : S1x21x128x512.Idx) :
    (iblk m c 0 t : Vec Ideal S1x21x128x512 .f32) j
      = V m c main_arg0 (ix4 (⟨t.val / 4, by have := tN t; omega⟩ : Fin 8) (j 1 : Fin 21)
          (⟨128 * (t.val % 4) + (j 2).val, by have : (j 2).val < 128 := (j 2).isLt; omega⟩ : Fin 512) (j 3 : Fin 512)) := by
  obtain ⟨e0, e1, e2, e3, -⟩ := idx_facts t
  unfold iblk
  rw [View.read_apply]
  show V m c main_arg0 _ = V m c main_arg0 _
  congr 1
  funext a
  apply Fin.ext
  have h0 : (j 0).val < 1 := (j 0).isLt
  match a with
  | ⟨0, _⟩ => show win0_0.index t (0 : Fin 4) * 1 + 1 * (j 0).val = t.val / 4; omega
  | ⟨1, _⟩ => show win0_0.index t (1 : Fin 4) * 21 + 1 * (j 1).val = (j 1).val; omega
  | ⟨2, _⟩ => show win0_0.index t (2 : Fin 4) * 128 + 1 * (j 2).val = 128 * (t.val % 4) + (j 2).val; omega
  | ⟨3, _⟩ => show win0_0.index t (3 : Fin 4) * 512 + 1 * (j 3).val = (j 3).val; omega

/-- The second input's tile likewise. -/
theorem iblk1_apply (c : Dev nD) (t : Fin cfg0.N) (j : S1x21x128x512.Idx) :
    (iblk m c 1 t : Vec Ideal S1x21x128x512 .f32) j
      = V m c main_arg1 (ix4 (⟨t.val / 4, by have := tN t; omega⟩ : Fin 8) (j 1 : Fin 21)
          (⟨128 * (t.val % 4) + (j 2).val, by have : (j 2).val < 128 := (j 2).isLt; omega⟩ : Fin 512) (j 3 : Fin 512)) := by
  obtain ⟨-, -, -, -, e0, e1, e2, e3, -⟩ := idx_facts t
  unfold iblk
  rw [View.read_apply]
  show V m c main_arg1 _ = V m c main_arg1 _
  congr 1
  funext a
  apply Fin.ext
  have h0 : (j 0).val < 1 := (j 0).isLt
  match a with
  | ⟨0, _⟩ => show win0_1.index t (0 : Fin 4) * 1 + 1 * (j 0).val = t.val / 4; omega
  | ⟨1, _⟩ => show win0_1.index t (1 : Fin 4) * 21 + 1 * (j 1).val = (j 1).val; omega
  | ⟨2, _⟩ => show win0_1.index t (2 : Fin 4) * 128 + 1 * (j 2).val = 128 * (t.val % 4) + (j 2).val; omega
  | ⟨3, _⟩ => show win0_1.index t (3 : Fin 4) * 512 + 1 * (j 3).val = (j 3).val; omega

/-- The count of batch entry `b`: the four tiles its points show. -/
def batchCount (c : Dev nD) (b : Fin 8) (s : Fin 3) (cc : Fin 21) : ℕ :=
  Tn m c s cc (4 * b.val) + Tn m c s cc (4 * b.val + 1) + Tn m c s cc (4 * b.val + 2) + Tn m c s cc (4 * b.val + 3)

/-- The array of per-batch counts the region leaves. -/
def partialArr (c : Dev nD) : Vec Ideal S8x3x21 .f32 :=
  fun j => (((batchCount m c (j 0 : Fin 8) (j 1 : Fin 3) (j 2 : Fin 21) : ℕ) : ℝ) : EReal)

/-- After the last row-tile of a batch entry the result block holds that entry's row of the array of counts. -/
theorem flushed_at (hp1 : Pay1) (hp2 : Pay2) (c : Dev nD) (t : Fin cfg0.N) (h3 : t.val % 4 = 3) (s : Fin 3) (cc : Fin 21) :
    outsAt0 m c t.val t.isLt (ix3 (0 : Fin 1) s cc)
      = partialArr m c (ix3 (⟨t.val / 4, by have := tN t; omega⟩ : Fin 8) s cc) := by
  refine (outsAt_eq m hp1 hp2 c s cc t.val t.isLt).trans ?_
  have ht : t.val = 4 * (t.val / 4) + 3 := by omega
  rw [congrArg (accN m c s cc) ht, accN_last]
  rfl

/-- What a point that ends a batch entry writes back is that entry's row of the array of counts. -/
theorem flushed_eq (hp1 : Pay1) (hp2 : Pay2) (c : Dev nD) (t : Fin cfg0.N) (hf : (cfg0.win 2).flush t = true) :
    (dats m 0 c).flushed 2 t = ((cfg0.win 2).blk t).view.read (Elt Ideal) (partialArr m c) := by
  have h3 : t.val % 4 = 3 := (flush0_2 t).mp hf
  have hN := tN t
  obtain ⟨-, -, -, -, -, -, -, -, e0, e1, e2⟩ := idx_facts t
  show (cfg0.win 2).cut (grid0.coords t) ((dats m 0 c).after 2 t) = _
  rw [after0_2]
  funext y
  show outsAt0 m c t.val t.isLt y = partialArr m c (((cfg0.win 2).blk t).view.emb y)
  have h0 : (y 0).val < 1 := (y 0).isLt
  have hy : (y : S1x3x21.Idx) = ix3 (0 : Fin 1) (y 1 : Fin 3) (y 2 : Fin 21) := by
    funext a
    match a with
    | ⟨0, _⟩ => exact Fin.ext (by show (y 0).val = 0; omega)
    | ⟨1, _⟩ => rfl
    | ⟨2, _⟩ => rfl
  have hb : (((cfg0.win 2).blk t).view.emb y) = ix3 (⟨t.val / 4, by omega⟩ : Fin 8) (y 1 : Fin 3) (y 2 : Fin 21) := by
    funext a
    apply Fin.ext
    match a with
    | ⟨0, _⟩ => show win0_2.index t (0 : Fin 3) * 1 + 1 * (y 0).val = t.val / 4; omega
    | ⟨1, _⟩ => show win0_2.index t (1 : Fin 3) * 3 + 1 * (y 1).val = (y 1).val; omega
    | ⟨2, _⟩ => show win0_2.index t (2 : Fin 3) * 21 + 1 * (y 2).val = (y 2).val; omega
  rw [hb]
  exact (congrArg (outsAt0 m c t.val t.isLt) hy).trans (flushed_at m hp1 hp2 c t h3 (y 1) (y 2))

/-- Every row of the array of counts is written back, by the point that ends its batch entry. -/
theorem final (hp1 : Pay1) (hp2 : Pay2) (c : Dev nD) : (dats m 0 c).arrAt 2 cfg0.N = partialArr m c :=
  (dats m 0 c).arrAt_eq_of_cover 2 (partialArr m c) (flushed_eq m hp1 hp2 c) fun i => by
    have hi0 : (i 0).val < 8 := (i 0).isLt
    have hi1 : (i 1).val < 3 := (i 1).isLt
    have hi2 : (i 2).val < 21 := (i 2).isLt
    have hlt : 4 * (i 0).val + 3 < cfg0.N := by rw [show cfg0.N = 32 from N_0]; omega
    obtain ⟨-, -, -, -, -, -, -, -, e0, e1, e2⟩ := idx_facts ⟨4 * (i 0).val + 3, hlt⟩
    refine ⟨⟨4 * (i 0).val + 3, hlt⟩, (flush0_2 _).mpr (by show (4 * (i 0).val + 3) % 4 = 3; omega), ?_⟩
    show i ∈ ((View.whole main_v0).slice (win0_2.rect ⟨4 * (i 0).val + 3, hlt⟩)).set
    rw [View.set_slice_whole, Rect.mem_set_unit]
    intro a
    match a with
    | ⟨0, _⟩ =>
      show win0_2.index ⟨4 * (i 0).val + 3, hlt⟩ (0 : Fin 3) * 1 ≤ (i 0).val ∧ (i 0).val < win0_2.index ⟨4 * (i 0).val + 3, hlt⟩ (0 : Fin 3) * 1 + 1
      rw [e0]; dsimp only; omega
    | ⟨1, _⟩ =>
      show win0_2.index ⟨4 * (i 0).val + 3, hlt⟩ (1 : Fin 3) * 3 ≤ (i 1).val ∧ (i 1).val < win0_2.index ⟨4 * (i 0).val + 3, hlt⟩ (1 : Fin 3) * 3 + 3
      rw [e1]; omega
    | ⟨2, _⟩ =>
      show win0_2.index ⟨4 * (i 0).val + 3, hlt⟩ (2 : Fin 3) * 21 ≤ (i 2).val ∧ (i 2).val < win0_2.index ⟨4 * (i 0).val + 3, hlt⟩ (2 : Fin 3) * 21 + 21
      rw [e2]; omega

end Cert.Jaccard.K

end
-- ==== Proof.Payload.lean ====
/-
  The values the kernel body stores, read at an index, at the ideal (extended real) values.

  The body stores a [1, 3, 21] block.  At the first row tile of a batch entry it stores zeros.  Afterwards it stores the
  previous block plus a stack of three rows; row s at class c is the sum over the 128 rows and 512 lanes of the tile
  of the float value (0 or 1) of test s at that position: test 1 is "the prediction is at least one half", test 2 is
  "the target equals one", and row 0 selects, on test 2, the value of test 1 or else zero, which is the value of both
  tests at once.  A sum of such values is the cast of the natural number counting the positions that pass the test.
-/
import proofs.«136420_j88905823027748_2_alg».proof.Proof.Spec
import proofs.«136420_j88905823027748_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.Jaccard

open Idealize.ShloMosaic Idealize.ShloMosaic.ValueIdx
open Cert.KernelIdeal

/-! ## One lane: the float value of a one-bit test -/

/-- A one-bit word widened to 32 bits and read as a signed integer is its numeric value, 0 or 1. -/
theorem toInt_setWidth_bit' (b : BitVec 1) : (b.setWidth 32).toInt = (b.toNat : ℤ) := by
  revert b; decide

/-- The float value of a widened one-bit test is the cast of its numeric value. -/
theorem sitofp_bit (b : BitVec 1) :
    FloatOps.sitofp (F := Ideal) .f32 (b.setWidth 32) = (((b.toNat : ℕ) : ℝ) : EReal) := by
  show (((b.setWidth 32).toInt : ℝ) : EReal) = _
  rw [toInt_setWidth_bit', Int.cast_natCast]

/-- Selecting, on a second test, the value of a first test or else zero gives the value of both tests at once. -/
theorem select_bit (a b : BitVec 1) :
    Scalar.select b ((((a.toNat : ℕ) : ℝ) : EReal)) (Ideal.ofBits .f32 0x00000000#32)
      = ((((IntOp.andi a b).toNat : ℕ) : ℝ) : EReal) := by
  rw [Ideal.ofBits_zero_f32]
  rcases BitVec.eq_zero_or_eq_one b with rfl | rfl
  · rw [select_zero]
    have h : IntOp.andi a 0#1 = 0#1 := by revert a; decide
    rw [h]; simp
  · rw [select_one]
    have h : IntOp.andi a 1#1 = a := by revert a; decide
    rw [h]

/-! ## Sums of casts -/

/-- A double sum of casts of naturals is the cast of the double sum. -/
theorem natCast_sum2 {ι κ : Type} [Fintype ι] [Fintype κ] (f : ι → κ → ℕ) :
    ∑ r, ∑ w, (((f r w : ℕ) : ℝ) : EReal) = (((∑ r, ∑ w, f r w : ℕ) : ℝ) : EReal) := by
  show ∑ r, ∑ w, ((f r w : ℕ) : EReal) = ((∑ r, ∑ w, f r w : ℕ) : EReal)
  rw [Nat.cast_sum]
  refine Finset.sum_congr rfl fun r _ => ?_
  rw [Nat.cast_sum]

/-! ## The two lane sums, the added unit axis, the stack of three rows -/

/-- Summing the lanes and then the rows of a tile gives, at class c, the double sum over rows and lanes. -/
theorem laneSum2_apply (src : FVec Ideal S1x21x128x512 .f32)
    (h3 : S1x21x128x512.Reduces [3] S1x21x128) (h2 : S1x21x128.Reduces [2] S1x21)
    (hφ : FKind.Formats .f32) (hacc : (0x00000000#32 : BitVec 32) = FKind.add.neutral .f32 hφ) (c : Fin 21) :
    multiReduction .add [2] S1x21 (multiReduction .add [3] S1x21x128 src 0x00000000#32 h3 hφ hacc) 0x00000000#32 h2 hφ hacc
        (ix2 (0 : Fin 1) c)
      = ∑ r : Fin 128, ∑ w : Fin 512, src (ix4 (0 : Fin 1) c r w) := by
  refine (Ideal.multiReduction_add_single _ _ h2 hφ hacc _).trans ?_
  refine Finset.sum_congr rfl fun r _ => ?_
  refine (Ideal.multiReduction_add_single src _ h3 hφ hacc _).trans ?_
  refine Finset.sum_congr rfl fun w _ => ?_
  refine congrArg src ?_
  funext a
  match a with
  | ⟨0, _⟩ => rfl
  | ⟨1, _⟩ => rfl
  | ⟨2, _⟩ => rfl
  | ⟨3, _⟩ => rfl

/-- Viewing a [1, 21] array as [1, 1, 21] reads (0, 0, c) at (0, c). -/
theorem addUnit_apply {α : Type} (v : S1x21.Idx → α) (h : S1x21.ShapeCasts S1x1x21) (c : Fin 21) :
    shapeCast S1x1x21 v h (ix3 (0 : Fin 1) (0 : Fin 1) c) = v (ix2 (0 : Fin 1) c) := by
  refine (shapeCast_addUnit_apply ![1, 21] v h _).trans (congrArg v ?_)
  funext a
  match a with
  | ⟨0, _⟩ => rfl
  | ⟨1, _⟩ => rfl

/-- A stack of three [1, 1, 21] rows along axis 1 reads row s at (0, s, c). -/
theorem stack3_apply {α : Type} (x0 x1 x2 : S1x1x21.Idx → α)
    (h : Shape.Concatenates [S1x1x21, S1x1x21, S1x1x21] S1x3x21 1) (s : Fin 3) (c : Fin 21) :
    concatenate S1x3x21 1 [⟨S1x1x21, x0⟩, ⟨S1x1x21, x1⟩, ⟨S1x1x21, x2⟩] h (ix3 (0 : Fin 1) s c)
      = (match s with | 0 => x0 | 1 => x1 | 2 => x2) (ix3 (0 : Fin 1) (0 : Fin 1) c) := by
  have hi : ∀ (s : Fin 3) (b : Fin S1x1x21.rank), b.cast (rfl : S1x1x21.rank = S1x3x21.rank) ≠ (1 : Fin 3) →
      ((ix3 (0 : Fin 1) (0 : Fin 1) c : S1x1x21.Idx) b).val = ((ix3 (0 : Fin 1) s c : S1x3x21.Idx) (b.cast rfl)).val := by
    intro s b
    match b with
    | ⟨0, _⟩ => exact fun _ => rfl
    | ⟨1, _⟩ => exact fun hb => absurd rfl hb
    | ⟨2, _⟩ => exact fun _ => rfl
  match s with
  | 0 =>
    exact concatenate_apply_piece (t := S1x3x21) 1 [⟨S1x1x21, x0⟩, ⟨S1x1x21, x1⟩, ⟨S1x1x21, x2⟩] h _
      0 (by show (0 : ℕ) < 3; omega) S1x1x21 x0 rfl rfl 0 rfl _ (hi 0) rfl
  | 1 =>
    exact concatenate_apply_piece (t := S1x3x21) 1 [⟨S1x1x21, x0⟩, ⟨S1x1x21, x1⟩, ⟨S1x1x21, x2⟩] h _
      1 (by show (1 : ℕ) < 3; omega) S1x1x21 x1 rfl rfl 1 rfl _ (hi 1) rfl
  | 2 =>
    exact concatenate_apply_piece (t := S1x3x21) 1 [⟨S1x1x21, x0⟩, ⟨S1x1x21, x1⟩, ⟨S1x1x21, x2⟩] h _
      2 (by show (2 : ℕ) < 3; omega) S1x1x21 x2 rfl rfl 2 rfl _ (hi 2) rfl

/-! ## The stored values -/

/-- The block stored at the first row tile of a batch entry is zero everywhere. -/
theorem pay1_apply (j : Cert.KernelIdeal.S1x3x21.Idx) : Cert.KernelIdeal.Gen.k0_pay1 (F := Ideal) j = 0 :=
  Ideal.ofBits_zero_f32

/-- What the body stores at row s and class c: the previous value plus the number of positions of the tile that pass
    test s in class c. -/
theorem pay2_apply (v3 v8 : Vec Ideal Cert.KernelIdeal.S1x21x128x512 .f32) (v25 : Vec Ideal Cert.KernelIdeal.S1x3x21 .f32) (s : Fin 3) (c : Fin 21) :
    Cert.KernelIdeal.Gen.k0_pay2 (F := Ideal) v3 v8 v25 (ix3 (0 : Fin 1) s c)
      = v25 (ix3 (0 : Fin 1) s c) + (((tileCount s v3 v8 c : ℕ) : ℝ) : EReal) := by
  unfold Cert.KernelIdeal.Gen.k0_pay2
  refine congrArg₂ (· + ·) (congrFun (shapeCast_self v25 _) _) ?_
  refine (stack3_apply _ _ _ _ s c).trans ?_
  match s with
  | 0 =>
    refine (addUnit_apply _ _ c).trans ?_
    refine (laneSum2_apply _ _ _ _ _ c).trans ?_
    refine Eq.trans ?_ (natCast_sum2 _)
    refine Finset.sum_congr rfl fun r _ => Finset.sum_congr rfl fun w _ => ?_
    exact (congrArg (fun x => Scalar.select (targBit (v8 (ix4 0 c r w))) x (Ideal.ofBits .f32 0x00000000#32))
      (sitofp_bit (predBit (v3 (ix4 0 c r w))))).trans (select_bit _ _)
  | 1 =>
    refine (addUnit_apply _ _ c).trans ?_
    refine (laneSum2_apply _ _ _ _ _ c).trans ?_
    refine Eq.trans ?_ (natCast_sum2 _)
    refine Finset.sum_congr rfl fun r _ => Finset.sum_congr rfl fun w _ => ?_
    exact sitofp_bit (predBit (v3 (ix4 0 c r w)))
  | 2 =>
    refine (addUnit_apply _ _ c).trans ?_
    refine (laneSum2_apply _ _ _ _ _ c).trans ?_
    refine Eq.trans ?_ (natCast_sum2 _)
    refine Finset.sum_congr rfl fun r _ => Finset.sum_congr rfl fun w _ => ?_
    exact sitofp_bit (targBit (v8 (ix4 0 c r w)))

end Cert.Jaccard

end
-- ==== Proof.StatRead.lean ====
/-
  Reading one statistic out of the per-batch results.

  The kernel's host lines add the [8, 3, 21] array of per-batch counts over the batch axis from a zero, take row s
  of the [3, 21] result as a [1, 21] slice and view it as [21].  Entry c of the outcome is the sum over the eight
  batch entries of entry (b, s, c): the view reads (0, c) of the slice, the slice reads (s, c) of the sum, the
  sum over one axis is the initial value plus the sum over that axis's coordinates, and the zero word reads 0.
-/
import proofs.«136420_j88905823027748_2_alg».proof.Proof.Tail
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Jaccard

open Idealize.ShloMosaic Idealize.ShloMosaic.ValueIdx

/-- The per-batch results, their sum over the batch axis, and one row of that sum. -/
abbrev SPartial : Shape := ⟨3, ![8, 3, 21]⟩
abbrev SSum : Shape := ⟨2, ![3, 21]⟩
abbrev SRow : Shape := ⟨2, ![1, 21]⟩

/-- Viewing a [1, 21] row as [21] reads (0, c) at c. -/
theorem row_view_apply {α : Type} (v : SRow.Idx → α) (hsc : SRow.ShapeCasts SCls) (c : Fin 21) :
    shapeCast SCls v hsc (ix1 c) = v (ix2 0 c) := by
  refine shapeCast_apply v hsc (ix1 c) (ix2 0 c) ?_
  rw [Shape.rowMajor_val_two, Shape.rowMajor_val_one]
  show (0 : ℕ) * 21 + c.val = c.val
  omega

/-- Row s of a [3, 21] array, as a [1, 21] slice, reads (s, c) at (0, c). -/
theorem row_slice_apply {α : Type} (y : SSum.Idx → α) (s : Fin 3) (hsl : SSum.Slices ![s.val, 0] SRow) (c : Fin 21) :
    extractStridedSlice SRow ![s.val, 0] y hsl (ix2 0 c) = y (ix2 s c) :=
  slice2_axis0_apply s.val y hsl 0 c s (Nat.add_zero _).symm

/-- The sum over the batch axis from a zero reads, at (s, c), the sum over the eight batch entries. -/
theorem batch_sum_apply (x : FVec Ideal SPartial .f32) (hred : SPartial.ReducesTo [0] SSum) (hS : 0 < SSca.numel)
    (s : Fin 3) (c : Fin 21) :
    Host.reduceAdd x (constant (F := Ideal) SSca .f32 0x00000000#32) hred hS (ix2 s c) = ∑ b : Fin 8, x (ix3 b s c) := by
  have h : SPartial.Reduces [0] SSum := by decide
  show Ideal.hostReduceAdd hred x (Ideal.ofBits .f32 0x00000000#32) (ix2 s c) = _
  rw [Ideal.hostReduceAdd_single hred h, Ideal.ofBits_zero_f32, zero_add]
  refine Finset.sum_congr rfl fun b _ => congrArg x (funext fun a => ?_)
  match a with
  | ⟨0, _⟩ => rfl
  | ⟨1, _⟩ => rfl
  | ⟨2, _⟩ => rfl

/-- Entry c of statistic s, read out of the per-batch results, is the sum over the batch entries. -/
theorem stat_read (x : FVec Ideal SPartial .f32) (s : Fin 3) (off : Fin 2 → Nat) (hoff : off = ![s.val, 0])
    (hred : SPartial.ReducesTo [0] SSum) (hS : 0 < SSca.numel) (hsl : SSum.Slices off SRow) (hsc : SRow.ShapeCasts SCls) (c : Fin 21) :
    shapeCast SCls (extractStridedSlice SRow off (Host.reduceAdd x (constant (F := Ideal) SSca .f32 0x00000000#32) hred hS) hsl) hsc (ix1 c)
      = ∑ b : Fin 8, x (ix3 b s c) := by
  subst hoff
  rw [row_view_apply, row_slice_apply, batch_sum_apply]

end Cert.Jaccard

end
-- ==== Proof.KTail.lean ====
/-
  The lines after the region, read: the result is the common tail function of the three rows of the summed array of
  per-batch counts.
-/
import proofs.«136420_j88905823027748_2_alg».proof.Proof.Accum
import proofs.«136420_j88905823027748_2_alg».proof.Proof.Payload
import proofs.«136420_j88905823027748_2_alg».proof.Proof.StatRead
import proofs.«136420_j88905823027748_2_alg».proof.Proof.Tail
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.Jaccard.K

open Cert.KernelIdeal Cert.KernelIdeal.Gen

variable (m : (ℓ : Loc nD τ sig) → Buf (Elt Ideal) ℓ) (ρ : Dev nD → PrngReg)

/-- Row `s` of the array of per-batch counts summed over the batch entries, as the host lines compute it: the sum from
    a zero over the batch axis, the slice at row `s`, the reshape to one entry per class. -/
def rowOf (A : FVec Ideal S8x3x21 .f32) (off : Fin 2 → Nat) (hsl : S3x21.Slices off S1x21) : FVec Ideal S21 .f32 :=
  shapeCast S21 (extractStridedSlice S1x21 off
    (Host.reduceAdd A (constant (F := Ideal) S_ .f32 0x00000000#32) reducesTo_S8x3x21_S3x21_d0 h_S_) hsl) shapeCasts_S1x21_S21

/-- The array of per-batch counts as the lines after the region find it. -/
abbrev arrAfter (c : Dev nD) : FVec Ideal S8x3x21 .f32 :=
  Pipeline.withArrays (cfgs 0).spec c (V0 m c) (fun w => (dats m 0 c).arrAt w (cfgs 0).N) (Proc.devRef .tc main_v0)

set_option maxHeartbeats 4000000 in
/-- The program's result buffer after the lines that follow the region. -/
theorem tail_value (c : Dev nD) :
    (Pipeline.afterTail₀ cfgs (dats m) 0 (V0 m) [hostOps1, hostOps1_1] c main_v15 : FVec Ideal S21 .f32)
      = tail bcast_S_S21 (rowOf (arrAfter m c) ![0, 0] slices_S3x21_S1x21_0_0) (rowOf (arrAfter m c) ![1, 0] slices_S3x21_S1x21_1_0)
          (rowOf (arrAfter m c) ![2, 0] slices_S3x21_S1x21_2_0) := by
  unfold Pipeline.afterTail₀
  simp only [hostOps1, hostOps1_1, List.flatten_cons, List.flatten_nil, List.append_nil, List.cons_append, List.nil_append]
  after_results_simp
  rfl

/-- The region leaves the array of per-batch counts. -/
theorem arrAfter_eq (c : Dev nD) : arrAfter m c = partialArr m c :=
  (Pipeline.withArrays_arr spec0 launch0.win.arr_inj c _ _ 2).trans (final m pay1_apply pay2_apply c)

/-- Row `s` at class `cc` is the sum over the batch entries of the per-batch counts. -/
theorem rowOf_apply (c : Dev nD) (s : Fin 3) (off : Fin 2 → Nat) (hoff : off = ![s.val, 0]) (hsl : S3x21.Slices off S1x21) (cc : Fin 21) :
    rowOf (arrAfter m c) off hsl (ix1 cc) = ∑ b : Fin 8, partialArr m c (ix3 b s cc) := by
  rw [arrAfter_eq]
  exact stat_read (partialArr m c) s off hoff reducesTo_S8x3x21_S3x21_d0 h_S_ hsl shapeCasts_S1x21_S21 cc

end Cert.Jaccard.K

end
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.Tiles.lean ====
/-
  The rows of a batch entry, cut into tiles.

  The 512 rows of one batch entry are 4 tiles of 128 consecutive rows: row 128 * k + r is row r of tile k.  A
  count over all rows of all batch entries is therefore the sum, over the batch entries and the tiles, of the
  counts inside each tile.
-/
import proofs.«136420_j88905823027748_2_alg».proof.Proof.Spec
import proofs.«136420_j88905823027748_2_alg».proof.Proof.LibSumTiles

noncomputable section

open scoped BigOperators

namespace Cert.Jaccard

open Idealize.ShloMosaic Idealize.ShloMosaic.ValueIdx

/-- Row r of tile k is row 128 * k + r of the batch entry. -/
theorem tile_row_lt (k : Fin 4) (r : Fin 128) : 128 * k.val + r.val < 512 := by
  have := k.isLt
  have := r.isLt
  omega

/-- Tile (b, k) of a whole array, as a [1,21,128,512] block. -/
def tileOf (x : SIn.Idx → Ideal .f32) (b : Fin 8) (k : Fin 4) : STile.Idx → Ideal .f32 :=
  fun j => x (ix4 b (j 1) ⟨128 * k.val + (j 2).val, tile_row_lt k (j 2)⟩ (j 3))

/-- A sum over the 512 rows is the sum over the 4 tiles of the sums over each tile's 128 rows. -/
theorem sum_rows {M : Type} [AddCommMonoid M] (f : Fin 512 → M) :
    ∑ h : Fin 512, f h = ∑ k : Fin 4, ∑ r : Fin 128, f ⟨128 * k.val + r.val, tile_row_lt k r⟩ := by
  refine (Cert.LibSumTiles.sum_tiles 4 128 f).trans ?_
  refine Finset.sum_congr rfl fun k _ => Finset.sum_congr rfl fun r _ => congrArg f (Fin.ext ?_)
  show k.val * 128 + r.val = 128 * k.val + r.val
  rw [Nat.mul_comm]

/-- The count over the whole arrays is the sum of the tile counts over all batch entries and tiles. -/
theorem count_eq_tiles (s : Fin 3) (x0 x1 : SIn.Idx → Ideal .f32) (c : Fin 21) :
    count s x0 x1 c = ∑ b : Fin 8, ∑ k : Fin 4, tileCount s (tileOf x0 b k) (tileOf x1 b k) c := by
  unfold count tileCount
  refine Finset.sum_congr rfl fun b _ => ?_
  rw [sum_rows]
  rfl

end Cert.Jaccard

end
-- ==== Proof.BatchTiles.lean ====
/-
  The per-batch count as a sum over the four row-tiles of the whole input arrays.

  Grid point 4 * b + k shows, of both inputs, batch entry b and row-tile k: rows 128 * k … 128 * k + 127.  So the
  block a window shows there is tile (b, k) of the whole array, and the count of batch entry b — the sum of the
  counts its four points see — is the sum over k of the tile counts of the whole arrays.
-/
import proofs.«136420_j88905823027748_2_alg».proof.Proof.Accum
import proofs.«136420_j88905823027748_2_alg».proof.Proof.Tiles

noncomputable section

open scoped BigOperators
open Idealize.ShloMosaic Idealize.ShloMosaic.TcCoe Idealize.SL.Sem Idealize.ShloMosaic.ValueIdx
open Idealize.ShloMosaic.Pipeline (Dat)

namespace Cert.Jaccard.K

open Cert.KernelIdeal Cert.KernelIdeal.Gen

variable (m : (ℓ : Loc nD τ sig) → Buf (Elt Ideal) ℓ)

/-- The first input's block at point 4 * b + k is tile (b, k) of the first input array. -/
theorem iblk0_eq_tileOf (c : Dev nD) (b : Fin 8) (k : Fin 4) (h : 4 * b.val + k.val < cfg0.N) :
    (iblk m c 0 ⟨4 * b.val + k.val, h⟩ : Vec Ideal S1x21x128x512 .f32) = tileOf (m ((c : Thread nD τ).loc main_arg0)) b k := by
  funext j
  refine (iblk0_apply m c _ j).trans ?_
  rw [V_main_arg0]
  unfold tileOf
  congr 1
  funext a
  apply Fin.ext
  have hb := b.isLt
  have hk := k.isLt
  match a with
  | ⟨0, _⟩ => show (4 * b.val + k.val) / 4 = b.val; omega
  | ⟨1, _⟩ => rfl
  | ⟨2, _⟩ => show 128 * ((4 * b.val + k.val) % 4) + (j 2).val = 128 * k.val + (j 2).val; omega
  | ⟨3, _⟩ => rfl

/-- The second input's block at point 4 * b + k is tile (b, k) of the second input array. -/
theorem iblk1_eq_tileOf (c : Dev nD) (b : Fin 8) (k : Fin 4) (h : 4 * b.val + k.val < cfg0.N) :
    (iblk m c 1 ⟨4 * b.val + k.val, h⟩ : Vec Ideal S1x21x128x512 .f32) = tileOf (m ((c : Thread nD τ).loc main_arg1)) b k := by
  funext j
  refine (iblk1_apply m c _ j).trans ?_
  rw [V_main_arg1]
  unfold tileOf
  congr 1
  funext a
  apply Fin.ext
  have hb := b.isLt
  have hk := k.isLt
  match a with
  | ⟨0, _⟩ => show (4 * b.val + k.val) / 4 = b.val; omega
  | ⟨1, _⟩ => rfl
  | ⟨2, _⟩ => show 128 * ((4 * b.val + k.val) % 4) + (j 2).val = 128 * k.val + (j 2).val; omega
  | ⟨3, _⟩ => rfl

/-- The count seen at point 4 * b + k is the count of tile (b, k) of the whole arrays. -/
theorem Tn_eq (c : Dev nD) (s : Fin 3) (cc : Fin 21) (b : Fin 8) (k : Fin 4) :
    Tn m c s cc (4 * b.val + k.val)
      = tileCount s (tileOf (m ((c : Thread nD τ).loc main_arg0)) b k) (tileOf (m ((c : Thread nD τ).loc main_arg1)) b k) cc := by
  have h : 4 * b.val + k.val < cfg0.N := by
    rw [show cfg0.N = 32 from N_0]
    have hb := b.isLt
    have hk := k.isLt
    omega
  unfold Tn
  rw [dif_pos h, iblk0_eq_tileOf m c b k h, iblk1_eq_tileOf m c b k h]

/-- The count of batch entry b is the sum over its four row-tiles of the tile counts of the whole arrays. -/
theorem batchCount_eq (c : Dev nD) (b : Fin 8) (s : Fin 3) (cc : Fin 21) :
    batchCount m c b s cc
      = ∑ k : Fin 4, tileCount s (tileOf (m ((c : Thread nD τ).loc main_arg0)) b k) (tileOf (m ((c : Thread nD τ).loc main_arg1)) b k) cc := by
  have e0 : Tn m c s cc (4 * b.val) = _ := Tn_eq m c s cc b 0
  have e1 : Tn m c s cc (4 * b.val + 1) = _ := Tn_eq m c s cc b 1
  have e2 : Tn m c s cc (4 * b.val + 2) = _ := Tn_eq m c s cc b 2
  have e3 : Tn m c s cc (4 * b.val + 3) = _ := Tn_eq m c s cc b 3
  unfold batchCount
  rw [e0, e1, e2, e3, Fin.sum_univ_four]

end Cert.Jaccard.K

end
-- ==== Proof.KCounts.lean ====
/-
  The per-batch counts add up to the total count.

  The region leaves, for each batch entry b, statistic s and class c, the count over that batch entry's 512 rows,
  as an extended real.  Summed over the eight batch entries this is the count over the whole arrays: a batch
  entry's count is the sum of its four tile counts, the total count is the sum of all the tile counts, and the
  cast of natural numbers into the extended reals commutes with finite sums.
-/
import proofs.«136420_j88905823027748_2_alg».proof.Proof.BatchTiles
import proofs.«136420_j88905823027748_2_alg».proof.Proof.Result

noncomputable section

open scoped BigOperators
open Idealize.ShloMosaic Idealize.ShloMosaic.TcCoe Idealize.SL.Sem Idealize.ShloMosaic.ValueIdx
open Idealize.ShloMosaic.Pipeline (Dat)

namespace Cert.Jaccard.K

open Cert.KernelIdeal Cert.KernelIdeal.Gen

variable (m : (ℓ : Loc nD τ sig) → Buf (Elt Ideal) ℓ)

/-- A finite sum of natural numbers read as extended reals is the natural-number sum read as an extended real. -/
theorem natCast_sum1 {ι : Type} [Fintype ι] (f : ι → ℕ) :
    ∑ b, (((f b : ℕ) : ℝ) : EReal) = (((∑ b, f b : ℕ) : ℝ) : EReal) := by
  show ∑ b, ((f b : ℕ) : EReal) = ((∑ b, f b : ℕ) : EReal)
  rw [Nat.cast_sum]

/-- The array of per-batch counts, summed over the batch entries, is the total count. -/
theorem partial_sum (c : Dev nD) (s : Fin 3) (cc : Fin 21) :
    ∑ b : Fin 8, partialArr m c (ix3 b s cc)
      = counts s (m ((c : Thread nD τ).loc main_arg0)) (m ((c : Thread nD τ).loc main_arg1)) (ix1 cc) := by
  show ∑ b : Fin 8, (((batchCount m c b s cc : ℕ) : ℝ) : EReal)
    = (((count s (m ((c : Thread nD τ).loc main_arg0)) (m ((c : Thread nD τ).loc main_arg1)) cc : ℕ) : ℝ) : EReal)
  rw [natCast_sum1, count_eq_tiles]
  exact congrArg (fun n : ℕ => ((n : ℝ) : EReal)) (Finset.sum_congr rfl fun b _ => batchCount_eq m c b s cc)

end Cert.Jaccard.K

end
-- ==== Proof.KRun.lean ====
/-
  The idealized kernel's run, read: its result buffer ends at the common function of the two input arrays.
-/
import proofs.«136420_j88905823027748_2_alg».proof.Proof.KTail
import proofs.«136420_j88905823027748_2_alg».proof.Proof.KCounts
import proofs.«136420_j88905823027748_2_alg».proof.Proof.Result

noncomputable section

open scoped BigOperators
open Idealize.ShloMosaic Idealize.ShloMosaic.TcCoe Idealize.SL.Sem Idealize.ShloMosaic.ValueIdx
open Idealize.ShloMosaic.Pipeline (Dat)

namespace Cert.Jaccard.K

open Cert.KernelIdeal Cert.KernelIdeal.Gen

variable (m : (ℓ : Loc nD τ sig) → Buf (Elt Ideal) ℓ) (ρ : Dev nD → PrngReg)

/-- Row `s` of the summed array of per-batch counts is the vector of total counts of statistic `s`. -/
theorem rowOf_eq_counts (c : Dev nD) (s : Fin 3) (off : Fin 2 → Nat) (hoff : off = ![s.val, 0]) (hsl : S3x21.Slices off S1x21) :
    rowOf (arrAfter m c) off hsl
      = counts s (m ((c : Thread nD τ).loc main_arg0)) (m ((c : Thread nD τ).loc main_arg1)) := by
  funext j
  obtain ⟨cc, rfl⟩ : ∃ cc : Fin 21, j = ix1 cc := ⟨j 0, eq_ix1 j⟩
  exact (rowOf_apply m c s off hoff hsl cc).trans (partial_sum m c s cc)

/-- The tail function of equal count vectors. -/
theorem tail_congr' (hb : SSca.BroadcastsInDim SCls (![] : Fin 0 → Fin SCls.rank)) {I P T I' P' T' : FVec Ideal SCls .f32}
    (hI : I = I') (hP : P = P') (hT : T = T') : tail hb I P T = tail hb I' P' T' := by
  subst hI hP hT; rfl

/-- The result buffer after the whole program: the common function of the two input arrays. -/
theorem kernel_value (c : Dev nD) :
    (Pipeline.afterTail₀ cfgs (dats m) 0 (V0 m) [hostOps1, hostOps1_1] c main_v15 : FVec Ideal S21 .f32)
      = G bcast_S_S21 (m ((c : Thread nD τ).loc main_arg0)) (m ((c : Thread nD τ).loc main_arg1)) := by
  rw [tail_value]
  exact tail_congr' _ (rowOf_eq_counts m c 0 _ rfl _) (rowOf_eq_counts m c 1 _ rfl _) (rowOf_eq_counts m c 2 _ rfl _)

/-- Every weakly fair execution of the idealized kernel ends with the result buffer at that function and the two
    input arrays unchanged. -/
theorem run : θ_run defs (onTc (τ := τ) (main (F := Ideal))) ⟨m, fun _ => 0, ρ⟩ fun r => ∀ c : Dev nD,
      r.2.mem ((c.tc : Thread nD τ).loc main_v15)
        = G bcast_S_S21 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v15 (Pipeline.mem_restRefs_of main_v15 rfl (by decide))).trans (kernel_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Jaccard.K

end
-- ==== Proof.lean ====
/-
  Per-class intersection over union of a thresholded prediction against a binary target: the kernel and its reference
  compute one function of the two input arrays.

  For each of the 21 classes both programs count, over the 8 batch entries and the 512 x 512 positions, the positions
  where the prediction is at least one half, those where the target equals one, and those where both hold; from the
  three counts they form the union (prediction count plus target count minus intersection), divide the intersection by
  the larger of the union and 1, and mark the classes whose union is 0.  The kernel counts in floats: every tile of 128
  rows of one batch entry is summed lane by lane and row by row, the tile sums of a batch entry are accumulated in one
  result block over four grid points, and the host adds the eight batch entries.  The reference counts in 32-bit
  integers over all positions at once and converts.  Over the extended reals a sum of zeros and ones is the number of
  ones, and a number of at most 2 ^ 21 ones is not changed by 32-bit arithmetic or by the conversion; so the three
  counts agree, and the remaining lines are the same on both sides.  No input needs to be finite for this.

  The three frames are the generated frame runs (the reference's from its run with the result dropped), the
  idealization rewrote nothing, and the two idealized programs end at the same array `Cert.Jaccard.G`.
-/
import proofs.«136420_j88905823027748_2_alg».proof.Defs
import proofs.«136420_j88905823027748_2_alg».proof.Proof.Gen.Kernel
import proofs.«136420_j88905823027748_2_alg».proof.Proof.Gen.Kernel.Skeleton
import proofs.«136420_j88905823027748_2_alg».proof.Proof.Gen.Kernel.Launch
import proofs.«136420_j88905823027748_2_alg».proof.Proof.Gen.Kernel.Points
import proofs.«136420_j88905823027748_2_alg».proof.Proof.Gen.Kernel.Frame
import proofs.«136420_j88905823027748_2_alg».proof.Proof.Gen.KernelIdeal
import proofs.«136420_j88905823027748_2_alg».proof.Proof.Gen.KernelIdeal.Skeleton
import proofs.«136420_j88905823027748_2_alg».proof.Proof.Gen.KernelIdeal.Launch
import proofs.«136420_j88905823027748_2_alg».proof.Proof.Gen.KernelIdeal.Points
import proofs.«136420_j88905823027748_2_alg».proof.Proof.Gen.KernelIdeal.Frame
import proofs.«136420_j88905823027748_2_alg».proof.Proof.Gen.ReferenceIdeal
import proofs.«136420_j88905823027748_2_alg».proof.Proof.Gen.Pre_finite_inputs
import proofs.«136420_j88905823027748_2_alg».proof.Proof.RefRun
import proofs.«136420_j88905823027748_2_alg».proof.Proof.RefValue
import proofs.«136420_j88905823027748_2_alg».proof.Proof.KRun
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the two input arrays both idealized programs end with the result at the common
    function of those arrays: the kernel by its frame run read through the accumulation over the grid and the host
    lines after it, the reference by its run and the integer count. -/
theorem algebraic : Cert.algebraic_KernelIdeal_ReferenceIdeal := by
  intro m ρ m' ρ' _ hagree
  refine ⟨fun c => Cert.Jaccard.G Cert.KernelIdeal.Facts₀.bcast_S_S21
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Jaccard.K.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact Cert.Jaccard.ref_value _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
